-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512x3 : Shape := ⟨4, ![32, 512, 512, 3]⟩
abbrev S3x3 : Shape := ⟨2, ![3, 3]⟩
abbrev S_ : Shape := ⟨0, ![]⟩

class Facts : Prop where
  bcast_S_S32x512x512x3 : S_.BroadcastsInDim S32x512x512x3 (![] : Fin 0 → Fin S32x512x512x3.rank)
  reducesTo_S32x512x512x3_S_d0_1_2_3 : S32x512x512x3.ReducesTo [0, 1, 2, 3] S_
  h_S_ : 0 < S_.numel
  bcast_S_S3x3 : S_.BroadcastsInDim S3x3 (![] : Fin 0 → Fin S3x3.rank)
  reducesTo_S3x3_S_d0_1 : S3x3.ReducesTo [0, 1] S_

variable [Facts]

def fn {F : FTy → Type} [FloatOps F] (main_arg0 : FVec F S32x512x512x3 .f32) (main_arg1 : FVec F S3x3 .f32) : IVec S_ 1 :=
  let main_v0 : FVec F S32x512x512x3 .f32 := Host.absf main_arg0
  let main_cst : FVec F S_ .f32 := constant S_ .f32 0x7F800000#32
  let main_v1 : FVec F S32x512x512x3 .f32 := broadcastInDim S32x512x512x3 ![] bcast_S_S32x512x512x3 main_cst
  let main_v2 : IVec S32x512x512x3 1 := cmpf .olt main_v0 main_v1
  let main_c : IVec S_ 1 := constantI S_ 1 1#1
  let main_v3 : IVec S_ 1 := (fun x v => Host.reduce IntOp.andi x v reducesTo_S32x512x512x3_S_d0_1_2_3 h_S_) main_v2 main_c
  let main_v4 : FVec F S3x3 .f32 := Host.absf main_arg1
  let main_cst_0 : FVec F S_ .f32 := constant S_ .f32 0x7F800000#32
  let main_v5 : FVec F S3x3 .f32 := broadcastInDim S3x3 ![] bcast_S_S3x3 main_cst_0
  let main_v6 : IVec S3x3 1 := cmpf .olt main_v4 main_v5
  let main_c_1 : IVec S_ 1 := constantI S_ 1 1#1
  let main_v7 : IVec S_ 1 := (fun x v => Host.reduce IntOp.andi x v reducesTo_S3x3_S_d0_1 h_S_) main_v6 main_c_1
  let main_v8 : IVec S_ 1 := andi main_v3 main_v7
  main_v8
-- ==== Kernel.lean ====
abbrev S32x512x512x3 : Shape := ⟨4, ![32, 512, 512, 3]⟩
abbrev S3x3 : Shape := ⟨2, ![3, 3]⟩
abbrev S16384x512x3 : Shape := ⟨3, ![16384, 512, 3]⟩
abbrev S8x512x3 : Shape := ⟨3, ![8, 512, 3]⟩
abbrev S8x512x1 : Shape := ⟨3, ![8, 512, 1]⟩
abbrev S8x512 : Shape := ⟨2, ![8, 512]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S32x512x512x3, .f32⟩
  | .hbm, ⟨1, _⟩ => ⟨S3x3, .f32⟩
  | .hbm, ⟨2, _⟩ => ⟨S16384x512x3, .f32⟩
  | .hbm, ⟨3, _⟩ => ⟨S16384x512x3, .f32⟩
  | .hbm, ⟨4, _⟩ => ⟨S32x512x512x3, .f32⟩
  | .local _ .vmem, ⟨0, _⟩ => ⟨S8x512x3, .f32⟩
  | .local _ .vmem, ⟨1, _⟩ => ⟨S8x512x3, .f32⟩
  | .local _ .vmem, ⟨2, _⟩ => ⟨S3x3, .f32⟩
  | .local _ .vmem, ⟨3, _⟩ => ⟨S8x512x3, .f32⟩
  | .local _ .vmem, ⟨4, _⟩ => ⟨S8x512x3, .f32⟩
  | _, _ => ⟨S32x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2048], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x512x512x3_S16384x512x3 : S32x512x512x3.ShapeCasts S16384x512x3
  inb_S8x512x3_S8x512x3_0_0_0 : ∀ a, (![0, 0, 0] : Fin 3 → Nat) a + S8x512x3.size a ≤ S8x512x3.size a
  h_S8x512x3 : 0 < S8x512x3.numel
  shapeCasts_S8x512x3_S8x512x3 : S8x512x3.ShapeCasts S8x512x3
  inb_S3x3_S3x3_0_0 : ∀ a, (![0, 0] : Fin 2 → Nat) a + S3x3.size a ≤ S3x3.size a
  h_S3x3 : 0 < S3x3.numel
  slices_S8x512x3_o0_0_0_S8x512x1 : S8x512x3.Slices ![0, 0, 0] S8x512x1
  shapeCasts_S8x512x1_S8x512 : S8x512x1.ShapeCasts S8x512
  slices_S8x512x3_o0_0_1_S8x512x1 : S8x512x3.Slices ![0, 0, 1] S8x512x1
  slices_S8x512x3_o0_0_2_S8x512x1 : S8x512x3.Slices ![0, 0, 2] S8x512x1
  slices_S3x3_o0_0_S1x1 : S3x3.Slices ![0, 0] S1x1
  inpos_S1x1_p0_0 : ∀ a, (![0, 0] : Fin 2 → Nat) a < S1x1.size a
  slices_S3x3_o0_1_S1x1 : S3x3.Slices ![0, 1] S1x1
  slices_S3x3_o0_2_S1x1 : S3x3.Slices ![0, 2] S1x1
  slices_S3x3_o1_0_S1x1 : S3x3.Slices ![1, 0] S1x1
  slices_S3x3_o1_1_S1x1 : S3x3.Slices ![1, 1] S1x1
  slices_S3x3_o1_2_S1x1 : S3x3.Slices ![1, 2] S1x1
  slices_S3x3_o2_0_S1x1 : S3x3.Slices ![2, 0] S1x1
  slices_S3x3_o2_1_S1x1 : S3x3.Slices ![2, 1] S1x1
  slices_S3x3_o2_2_S1x1 : S3x3.Slices ![2, 2] S1x1
  inb_S8x512x3_S8x512x1_0_0_0 : ∀ a, (![0, 0, 0] : Fin 3 → Nat) a + S8x512x1.size a ≤ S8x512x3.size a
  h_S8x512x1 : 0 < S8x512x1.numel
  shapeCasts_S8x512_S8x512x1 : S8x512.ShapeCasts S8x512x1
  inb_S8x512x3_S8x512x1_0_0_1 : ∀ a, (![0, 0, 1] : Fin 3 → Nat) a + S8x512x1.size a ≤ S8x512x3.size a
  inb_S8x512x3_S8x512x1_0_0_2 : ∀ a, (![0, 0, 2] : Fin 3 → Nat) a + S8x512x1.size a ≤ S8x512x3.size a
  shapeCasts_S16384x512x3_S32x512x512x3 : S16384x512x3.ShapeCasts S32x512x512x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x3.size a ≤ S16384x512x3.size a
  hwx0_0 : ∀ i : grid0.Coords, EltTy.bits .f32 = 32 ∨ (Rect.block (s := S16384x512x3) S8x512x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x3.size a ≤ S3x3.size a
  hwx0_1 : ∀ i : grid0.Coords, EltTy.bits .f32 = 32 ∨ (Rect.block (s := S3x3) S3x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512x3.size a ≤ S16384x512x3.size a
  hwx0_2 : ∀ i : grid0.Coords, EltTy.bits .f32 = 32 ∨ (Rect.block (s := S16384x512x3) S8x512x3.size (cc0_transform_2 i) (hinb0_2 i)).WholeWords (EltTy.packing .f32)

variable [Facts₀]

abbrev win0_0 : Pipeline.Window sig grid0 :=
  Pipeline.Window.ofSpec (Memref.whole main_v0) S8x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x512x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x512x3 : Shape := ⟨4, ![32, 512, 512, 3]⟩
abbrev S3x3 : Shape := ⟨2, ![3, 3]⟩

abbrev nBuf : Space → Nat
  | .hbm => 3
  | .vmem => 0
  | .smem => 0
  | _ => 0

abbrev bufTy : (tb : Table) → Fin (tcTables nBuf tb) → BufTy
  | .hbm, ⟨0, _⟩ => ⟨S32x512x512x3, .f32⟩
  | .hbm, ⟨1, _⟩ => ⟨S3x3, .f32⟩
  | .hbm, ⟨2, _⟩ => ⟨S32x512x512x3, .f32⟩
  | _, _ => ⟨S32x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S32x512x512x3_S3x3_S32x512x512x3_3_0_012_1_n_n_wf : DotDims.WF S32x512x512x3 S3x3 S32x512x512x3 [3] [0] [0, 1, 2] [1] [] []

variable [Facts₀]

def dot_S32x512x512x3_S3x3_S32x512x512x3_3_0_012_1_n_n : DotDims S32x512x512x3 S3x3 S32x512x512x3 where
  lhsContracting := [3]
  rhsContracting := [0]
  lhsNonContracting := [0, 1, 2]
  rhsNonContracting := [1]
  lhsBatch := []
  rhsBatch := []
  wf := dot_S32x512x512x3_S3x3_S32x512x512x3_3_0_012_1_n_n_wf

class Facts : Prop extends Facts₀ where

variable [Facts]
-- ==== Proof.PixelMix.lean ====
/-
  A per-pixel colour transform, as mathematics.

  An image is an array x[b, h, q, c] of extended reals with three channels c; a 3×3 matrix w[c, d] sends
  every pixel's channel vector to the vector  y[b, h, q, d] = Σ_c x[b, h, q, c] · w[c, d].  The same map on
  the image with its two leading axes merged into one row axis r = b·512 + h is written with the three
  products added from left to right,  (x[r,q,0]·w[0,d] + x[r,q,1]·w[1,d]) + x[r,q,2]·w[2,d],  and it acts on
  each row by itself, so a block of rows of the merged image is sent to the same block of the result.

  Merging the two leading axes, mixing, and splitting them again is the sum over the channels: the three
  products are the three terms of that sum, and a sum over three indices IS the left-to-right sum.  No law
  beyond the definition of a finite sum is used, so nothing is asked of the entries: they may be infinite.
-/
import Idealize.ShloMosaic.PureOps.Ideal
import Idealize.ShloMosaic.Lib.ValueIdx
import Idealize.ShloMosaic.Lib.Pipeline.Value

noncomputable section

open scoped BigOperators
open Idealize.ShloMosaic Idealize.ShloMosaic.ValueIdx

namespace Cert.PixelMix

/-- The image [32, 512, 512, 3], the image by rows [R, 512, 3] (R = 16384 for the whole image, 8 for a block of
    rows), the matrix [3, 3], and one channel of a block of rows, [8, 512, 1] and [8, 512]. -/
abbrev Img : Shape := ⟨4, ![32, 512, 512, 3]⟩
abbrev RowsOf (R : Nat) : Shape := ⟨3, ![R, 512, 3]⟩
abbrev Mat : Shape := ⟨2, ![3, 3]⟩

/-- Output channel `d` of pixel `(r, q)` of an image given by rows: the pixel's three channels against column `d`
    of the matrix, the three products added from left to right. -/
def mixAt {R : Nat} (x : (RowsOf R).Idx → EReal) (w : Mat.Idx → EReal) (r : Fin R) (q : Fin 512) (d : Fin 3) : EReal :=
  x (ix3 r q (0 : Fin 3)) * w (ix2 (0 : Fin 3) d) + x (ix3 r q (1 : Fin 3)) * w (ix2 (1 : Fin 3) d)
    + x (ix3 r q (2 : Fin 3)) * w (ix2 (2 : Fin 3) d)

/-- The transform of an image given by rows. -/
def mix {R : Nat} (x : (RowsOf R).Idx → EReal) (w : Mat.Idx → EReal) : (RowsOf R).Idx → EReal :=
  fun j => mixAt x w (j 0) (j 1) (j 2)

theorem mix_ix3 {R : Nat} (x : (RowsOf R).Idx → EReal) (w : Mat.Idx → EReal) (r : Fin R) (q : Fin 512) (d : Fin 3) :
    mix x w (ix3 r q d) = mixAt x w r q d := rfl

/-- THE TRANSFORM ACTS ROW BY ROW: if `B` is the block of eight rows of `X` that starts at row `8·T` and `W'` is `W`,
    then the transform of `B` at `j` is the transform of `X` at the place `i` of `j` in that block. -/
theorem mix_block (X : (RowsOf 16384).Idx → EReal) (W : Mat.Idx → EReal) (B : (RowsOf 8).Idx → EReal) (W' : Mat.Idx → EReal) (T : Nat)
    (hB : ∀ (a : Fin 8) (b : Fin 512) (k : Fin 3) (r : Fin 16384), r.val = T * 8 + a.val → B (ix3 a b k) = X (ix3 r b k))
    (hW : ∀ z, W' z = W z) (j : (RowsOf 8).Idx) (i : (RowsOf 16384).Idx)
    (h0 : (i 0).val = T * 8 + (j 0).val) (h1 : (i 1).val = (j 1).val) (h2 : (i 2).val = (j 2).val) :
    mix B W' j = mix X W i := by
  obtain ⟨a, b, d, rfl⟩ : ∃ (a : Fin 8) (b : Fin 512) (d : Fin 3), j = ix3 a b d := ⟨j 0, j 1, j 2, eq_ix3 j⟩
  obtain ⟨r, q, e, rfl⟩ : ∃ (r : Fin 16384) (q : Fin 512) (e : Fin 3), i = ix3 r q e := ⟨i 0, i 1, i 2, eq_ix3 i⟩
  obtain rfl : q = b := Fin.ext h1
  obtain rfl : e = d := Fin.ext h2
  have hr : r.val = T * 8 + a.val := h0
  rw [mix_ix3, mix_ix3]
  unfold mixAt
  rw [hB a q 0 r hr, hB a q 1 r hr, hB a q 2 r hr, hW, hW, hW]

/-- The transform of the image itself: the sum over the input channels. -/
def mixImage (x : Img.Idx → EReal) (w : Mat.Idx → EReal) : Img.Idx → EReal :=
  fun i => ∑ k : Fin 3, x (ix4 (i 0) (i 1) (i 2) k) * w (ix2 k (i 3))

section Rows
variable {α : Type}

/-- The image by rows reads, at row `r = b·512 + h`, the image at `(b, h)`. -/
theorem byRows_apply (x : Img.Idx → α) (hc : Img.ShapeCasts (RowsOf 16384)) (b : Fin 32) (h : Fin 512) (q : Fin 512) (k : Fin 3)
    (r : Fin 16384) (hr : r.val = b.val * 512 + h.val) :
    shapeCast (RowsOf 16384) x hc (ix3 r q k) = x (ix4 b h q k) := by
  refine shapeCast_apply x hc (ix3 r q k) (ix4 b h q k) ?_
  rw [Shape.rowMajor_val_three, Shape.rowMajor_val_four]
  show ((b.val * 512 + h.val) * 512 + q.val) * 3 + k.val = (r.val * 512 + q.val) * 3 + k.val
  rw [hr]

/-- An array given by rows, read as an image at `(b, h)`, is its row `r = b·512 + h`. -/
theorem asImage_apply (y : (RowsOf 16384).Idx → α) (hc : (RowsOf 16384).ShapeCasts Img) (b : Fin 32) (h : Fin 512) (q : Fin 512) (k : Fin 3)
    (r : Fin 16384) (hr : r.val = b.val * 512 + h.val) :
    shapeCast Img y hc (ix4 b h q k) = y (ix3 r q k) := by
  refine shapeCast_apply y hc (ix4 b h q k) (ix3 r q k) ?_
  rw [Shape.rowMajor_val_three, Shape.rowMajor_val_four]
  show (r.val * 512 + q.val) * 3 + k.val = ((b.val * 512 + h.val) * 512 + q.val) * 3 + k.val
  rw [hr]

end Rows

/-- Merging the leading axes, mixing by rows and splitting the axes again is the sum over the channels. -/
theorem asImage_mix_byRows (x : Img.Idx → EReal) (w : Mat.Idx → EReal) (hc : Img.ShapeCasts (RowsOf 16384))
    (hc' : (RowsOf 16384).ShapeCasts Img) :
    shapeCast Img (mix (shapeCast (RowsOf 16384) x hc) w) hc' = mixImage x w := by
  funext i
  obtain ⟨b, h, q, d, rfl⟩ : ∃ (b : Fin 32) (h : Fin 512) (q : Fin 512) (d : Fin 3), i = ix4 b h q d :=
    ⟨i 0, i 1, i 2, i 3, eq_ix4 i⟩
  have hlt : b.val * 512 + h.val < 16384 := by have := b.isLt; have := h.isLt; omega
  rw [asImage_apply _ hc' b h q d ⟨b.val * 512 + h.val, hlt⟩ rfl, mix_ix3]
  unfold mixAt
  rw [byRows_apply x hc b h q 0 _ rfl, byRows_apply x hc b h q 1 _ rfl, byRows_apply x hc b h q 2 _ rfl]
  show _ = ∑ k : Fin 3, x (ix4 b h q k) * w (ix2 k d)
  rw [Fin.sum_univ_three]

end Cert.PixelMix

end
-- ==== Proof.RowBlock.lean ====
/-
  What the kernel's body leaves in its output block, as mathematics.

  The body holds a block of eight rows of the image given by rows, x[a, b, c] (a < 8, b < 512, three channels c),
  and the whole matrix w.  It cuts the three channels out of the block — channel k is the slice of extent one at
  k along the last axis, with that axis dropped —, reads the nine matrix entries as scalars, forms for each
  output channel d the value  (x[·,·,0]·w[0,d] + x[·,·,1]·w[1,d]) + x[·,·,2]·w[2,d]  on the 8×512 pixels, and
  stores it, the last axis put back, into the slab d of the output block.  The three slabs tile the block, and
  on each of them the stored value is the colour transform of the block of rows (`Cert.PixelMix.mix`) read at the
  slab's place: so the output block is the transform of the input block.
-/
import proofs.«119555_j55963423867505_2_alg».proof.Proof.Gen.KernelIdeal.Frame
import proofs.«119555_j55963423867505_2_alg».proof.Proof.PixelMix

noncomputable section

open Idealize.ShloMosaic Idealize.ShloMosaic.ValueIdx

namespace Cert.KernelIdeal.RowBlock

open Cert.KernelIdeal Cert.KernelIdeal.Gen Cert.PixelMix

theorem zeros3 : (![0, 0, 0] : Fin 3 → Nat) = fun _ => 0 := funext fun a => by fin_cases a <;> rfl
theorem zeros2 : (![0, 0] : Fin 2 → Nat) = fun _ => 0 := funext fun a => by fin_cases a <;> rfl

/-- Channel `k` of a block of rows as the body cuts it out, read at pixel `(a, b)`. -/
theorem channel_apply (x : Vec Ideal S8x512x3 .f32) (k : Fin 3) (off : Fin 3 → Nat) (hoff : off = ![0, 0, k.val])
    (hs : S8x512x3.Slices off S8x512x1) (hc : S8x512x1.ShapeCasts S8x512) (a : Fin 8) (b : Fin 512) :
    shapeCast S8x512 (extractStridedSlice S8x512x1 off x hs) hc (ix2 a b) = x (ix3 a b k) := by
  subst hoff
  refine (shapeCast_apply _ hc (ix2 a b) (ix3 a b (0 : Fin 1)) ?_).trans ?_
  · rw [Shape.rowMajor_val_three, Shape.rowMajor_val_two]
    show (a.val * 512 + b.val) * 1 + 0 = a.val * 512 + b.val
    omega
  · refine extractStridedSlice_apply _ x hs (ix3 a b (0 : Fin 1)) (ix3 a b k) fun c => ?_
    match c with
    | ⟨0, _⟩ => show a.val = 0 + a.val; omega
    | ⟨1, _⟩ => show b.val = 0 + b.val; omega
    | ⟨2, _⟩ => show k.val = k.val + 0; omega

/-- Entry `(i, j)` of the matrix as the body reads it: the 1×1 slice at `(i, j)`, its one element. -/
theorem entry_apply (w : Vec Ideal S3x3 .f32) (i j : Fin 3) (off : Fin 2 → Nat) (hoff : off = ![i.val, j.val])
    (hs : S3x3.Slices off S1x1) (hp : ∀ a, (![0, 0] : Fin 2 → Nat) a < S1x1.size a) :
    extractAt ![0, 0] (extractStridedSlice S1x1 off w hs) hp = w (ix2 i j) := by
  subst hoff
  unfold extractAt extractStridedSlice
  refine congrArg w (funext fun a => Fin.ext ?_)
  match a with
  | ⟨0, _⟩ => show i.val + 0 = i.val; omega
  | ⟨1, _⟩ => show j.val + 0 = j.val; omega

/-- Output channel 0 on the block's pixels. -/
theorem pay8_apply (x : Vec Ideal S8x512x3 .f32) (w : Vec Ideal S3x3 .f32) (a : Fin 8) (b : Fin 512) :
    k0_pay8 (F := Ideal) x w (ix2 a b) = mixAt x w a b 0 := by
  unfold k0_pay8 k0_pay5 k0_pay6 k0_pay7 k0_pay4
  dsimp only
  simp only [shapeCast_self, addf_apply, mulf_apply, broadcast_apply]
  rw [channel_apply x 0 ![0, 0, 0] rfl, channel_apply x 1 ![0, 0, 1] rfl, channel_apply x 2 ![0, 0, 2] rfl,
    entry_apply w 0 0 ![0, 0] rfl, entry_apply w 1 0 ![1, 0] rfl, entry_apply w 2 0 ![2, 0] rfl]
  rfl

/-- Output channel 1 on the block's pixels. -/
theorem pay9_apply (x : Vec Ideal S8x512x3 .f32) (w : Vec Ideal S3x3 .f32) (a : Fin 8) (b : Fin 512) :
    k0_pay9 (F := Ideal) x w (ix2 a b) = mixAt x w a b 1 := by
  unfold k0_pay9 k0_pay5 k0_pay6 k0_pay7 k0_pay4
  dsimp only
  simp only [shapeCast_self, addf_apply, mulf_apply, broadcast_apply]
  rw [channel_apply x 0 ![0, 0, 0] rfl, channel_apply x 1 ![0, 0, 1] rfl, channel_apply x 2 ![0, 0, 2] rfl,
    entry_apply w 0 1 ![0, 1] rfl, entry_apply w 1 1 ![1, 1] rfl, entry_apply w 2 1 ![2, 1] rfl]
  rfl

/-- Output channel 2 on the block's pixels. -/
theorem pay10_apply (x : Vec Ideal S8x512x3 .f32) (w : Vec Ideal S3x3 .f32) (a : Fin 8) (b : Fin 512) :
    k0_pay10 (F := Ideal) x w (ix2 a b) = mixAt x w a b 2 := by
  unfold k0_pay10 k0_pay5 k0_pay6 k0_pay7 k0_pay4
  dsimp only
  simp only [shapeCast_self, addf_apply, mulf_apply, broadcast_apply]
  rw [channel_apply x 0 ![0, 0, 0] rfl, channel_apply x 1 ![0, 0, 1] rfl, channel_apply x 2 ![0, 0, 2] rfl,
    entry_apply w 0 2 ![0, 2] rfl, entry_apply w 1 2 ![1, 2] rfl, entry_apply w 2 2 ![2, 2] rfl]
  rfl

/-- A value on the 8×512 pixels with a last axis of extent one put back, read at an index. -/
theorem slab_apply (v : FVec Ideal S8x512 .f32) (hc : S8x512.ShapeCasts S8x512x1) (a : Fin 8) (b : Fin 512) (u : Fin 1) :
    shapeCast S8x512x1 v hc (ix3 a b u) = v (ix2 a b) := by
  refine shapeCast_apply v hc (ix3 a b u) (ix2 a b) ?_
  rw [Shape.rowMajor_val_three, Shape.rowMajor_val_two]
  show a.val * 512 + b.val = (a.val * 512 + b.val) * 1 + u.val
  have := u.isLt
  omega

/-- The place in the block of element `(a, b, u)` of the slab at channel `d`. -/
theorem slab_emb (d : Fin 3) (inb : ∀ a, (![0, 0, d.val] : Fin 3 → Nat) a + S8x512x1.size a ≤ S8x512x3.size a)
    (a : Fin 8) (b : Fin 512) (u : Fin 1) :
    (Rect.unit (s := S8x512x3) ![0, 0, d.val] S8x512x1.size inb).emb (ix3 a b u) = ix3 a b d :=
  funext fun c => Fin.ext (by
    match c with
    | ⟨0, _⟩ => show 0 + 1 * a.val = a.val; omega
    | ⟨1, _⟩ => show 0 + 1 * b.val = b.val; omega
    | ⟨2, _⟩ => show d.val + 1 * u.val = d.val; have := u.isLt; omega)

/-- THE BLOCK: what the body leaves in the output block is the colour transform of its block of rows. -/
theorem block_eq (x0 : Vec Ideal S8x512x3 .f32) (x1 : Vec Ideal S3x3 .f32) : out0_2 (F := Ideal) x0 x1 = mix x0 x1 := by
  funext y
  unfold out0_2
  rw [View.ld_unit_zero (S := S8x512x3) zeros3, View.ld_unit_zero (S := S3x3) zeros2]
  refine View.canon_apply_of_pieces (Val := Elt Ideal) (S := S8x512x3) (e := .f32) (mix x0 x1) _ ?_ y (cover0_2 _ _ _ y)
  intro p hp x
  simp only [List.mem_cons, List.mem_nil_iff, or_false] at hp
  rcases hp with rfl | rfl | rfl
  · obtain ⟨a, b, u, rfl⟩ : ∃ (a : Fin 8) (b : Fin 512) (u : Fin 1), x = ix3 a b u := ⟨x 0, x 1, x 2, eq_ix3 x⟩
    show k0_pay3 (k0_pay10 x0 x1) (ix3 a b u) = mix x0 x1 (r0_4.emb (ix3 a b u))
    rw [show r0_4.emb (ix3 a b u) = ix3 a b (2 : Fin 3) from slab_emb 2 _ a b u, mix_ix3]
    unfold k0_pay3
    rw [slab_apply, pay10_apply]
  · obtain ⟨a, b, u, rfl⟩ : ∃ (a : Fin 8) (b : Fin 512) (u : Fin 1), x = ix3 a b u := ⟨x 0, x 1, x 2, eq_ix3 x⟩
    show k0_pay2 (k0_pay9 x0 x1) (ix3 a b u) = mix x0 x1 (r0_3.emb (ix3 a b u))
    rw [show r0_3.emb (ix3 a b u) = ix3 a b (1 : Fin 3) from slab_emb 1 _ a b u, mix_ix3]
    unfold k0_pay2
    rw [slab_apply, pay9_apply]
  · obtain ⟨a, b, u, rfl⟩ : ∃ (a : Fin 8) (b : Fin 512) (u : Fin 1), x = ix3 a b u := ⟨x 0, x 1, x 2, eq_ix3 x⟩
    show k0_pay1 (k0_pay8 x0 x1) (ix3 a b u) = mix x0 x1 (r0_2.emb (ix3 a b u))
    rw [show r0_2.emb (ix3 a b u) = ix3 a b (0 : Fin 3) from slab_emb 0 _ a b u, mix_ix3]
    unfold k0_pay1
    rw [slab_apply, pay8_apply]

end Cert.KernelIdeal.RowBlock

end
-- ==== Proof.ImageValue.lean ====
/-
  The kernel's result as one function of its arguments.

  The program merges the image's two leading axes (row r = b·512 + h), sweeps the 16384 rows in 2048 blocks of
  eight — point t of the sweep holds rows 8t … 8t+7, all 512 pixels and all three channels, and the whole
  matrix —, writes each transformed block back to the same rows of the result, and splits the leading axis of
  the result again.  Each block written back is the colour transform of the block read (`RowBlock.block_eq`),
  the transform acts row by row (`PixelMix.mix_block`), and the blocks tile the rows (row r lies in block r / 8):
  so the array the sweep leaves is the transform of the image by rows, and the program's result is that array
  with its leading axis split, which is the sum over the channels (`PixelMix.asImage_mix_byRows`).
-/
import proofs.«119555_j55963423867505_2_alg».proof.Proof.Gen.KernelIdeal.Frame
import proofs.«119555_j55963423867505_2_alg».proof.Proof.RowBlock
import proofs.«119555_j55963423867505_2_alg».proof.Proof.PixelMix
import Idealize.ShloMosaic.Lib.Pipeline.Value
import Idealize.ShloMosaic.Lib.StableHlo.Run
import Idealize.ShloMosaic.Lib.Tactic

noncomputable section

open Idealize.ShloMosaic Idealize.ShloMosaic.TcCoe Idealize.ShloMosaic.ValueIdx Idealize.SL.Sem
open Idealize.ShloMosaic.Pipeline (Dat)

namespace Cert.KernelIdeal.Image

open Cert.KernelIdeal Cert.KernelIdeal.Gen Cert.PixelMix

variable (m : (ℓ : Loc nD τ sig) → Buf (Elt Ideal) ℓ) (ρ : Dev nD → PrngReg)

/-- The sweep finds, in the array its first window reads, the image by rows. -/
theorem rows_eq (c : Dev nD) :
    (V m c main_v0 : S16384x512x3.Idx → EReal)
      = shapeCast S16384x512x3 (m ((c : Thread nD τ).loc main_arg0)) shapeCasts_S32x512x512x3_S16384x512x3 := by
  show StableHlo.after hostOps0 (fun b => m (c, b)) (Proc.devRef .tc main_v0) = _
  after_results
  rfl

/-- The windows' block indices at point `t`: the two row windows sit at block `t` of the row axis, the matrix window
    at the matrix itself. -/
theorem index_facts : ∀ t : Fin cfg0.N, win0_0.index t (0 : Fin 3) = t.val ∧ win0_0.index t (1 : Fin 3) = 0
    ∧ win0_0.index t (2 : Fin 3) = 0 ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The block of rows at point `t` is rows `8t … 8t + 7` of the image by rows. -/
theorem rows_block_apply (c : Dev nD) (t : Fin cfg0.N) (a : Fin 8) (b : Fin 512) (k : Fin 3) (r : Fin 16384)
    (hr : r.val = t.val * 8 + a.val) :
    (iblk m c 0 t : Vec Ideal S8x512x3 .f32) (ix3 a b k) = (V m c main_v0 : S16384x512x3.Idx → EReal) (ix3 r b k) := by
  obtain ⟨e0, e1, e2, -⟩ := index_facts t
  unfold iblk
  rw [View.read_apply]
  show (V m c main_v0 : S16384x512x3.Idx → EReal) _ = (V m c main_v0 : S16384x512x3.Idx → EReal) _
  congr 1
  funext d
  apply Fin.ext
  match d with
  | ⟨0, _⟩ => show win0_0.index t (0 : Fin 3) * 8 + 1 * a.val = r.val; rw [e0, hr]; omega
  | ⟨1, _⟩ => show win0_0.index t (1 : Fin 3) * 512 + 1 * b.val = b.val; rw [e1]; omega
  | ⟨2, _⟩ => show win0_0.index t (2 : Fin 3) * 3 + 1 * k.val = k.val; rw [e2]; omega

/-- The matrix block at every point is the matrix. -/
theorem matrix_block_apply (c : Dev nD) (t : Fin cfg0.N) (z : S3x3.Idx) :
    (iblk m c 1 t : Vec Ideal S3x3 .f32) z = (V m c main_arg1 : S3x3.Idx → EReal) z := by
  obtain ⟨-, -, -, e3, e4, -⟩ := index_facts t
  unfold iblk
  rw [View.read_apply]
  show (V m c main_arg1 : S3x3.Idx → EReal) _ = (V m c main_arg1 : S3x3.Idx → EReal) _
  congr 1
  funext d
  apply Fin.ext
  match d with
  | ⟨0, _⟩ => show win0_1.index t (0 : Fin 2) * 3 + 1 * (z 0).val = (z 0).val; rw [e3]; omega
  | ⟨1, _⟩ => show win0_1.index t (1 : Fin 2) * 3 + 1 * (z 1).val = (z 1).val; rw [e4]; omega

/-- WHAT POINT `t` WRITES BACK is block `t` of the colour transform of the image by rows. -/
theorem flushed_eq (c : Dev nD) (t : Fin cfg0.N) :
    (dats m 0 c).flushed 2 t
      = ((cfg0.win 2).blk t).view.read (Elt Ideal) (mix (V m c main_v0) (V m c main_arg1)) := by
  show (cfg0.win 2).cut (grid0.coords t) ((dats m 0 c).after 2 t) = _
  rw [after0_2, RowBlock.block_eq]
  obtain ⟨-, -, -, -, -, e5, e6, e7⟩ := index_facts t
  funext j
  show mix (iblk m c 0 t) (iblk m c 1 t) j = mix (V m c main_v0) (V m c main_arg1) (((cfg0.win 2).blk t).view.emb j)
  refine mix_block (V m c main_v0) (V m c main_arg1) (iblk m c 0 t) (iblk m c 1 t) t.val
    (fun a b k r hr => rows_block_apply m c t a b k r hr) (fun z => matrix_block_apply m c t z) j
    (((cfg0.win 2).blk t).view.emb j) ?_ ?_ ?_
  · show win0_2.index t (0 : Fin 3) * 8 + 1 * (j 0).val = t.val * 8 + (j 0).val; rw [e5]; omega
  · show win0_2.index t (1 : Fin 3) * 512 + 1 * (j 1).val = (j 1).val; rw [e6]; omega
  · show win0_2.index t (2 : Fin 3) * 3 + 1 * (j 2).val = (j 2).val; rw [e7]; omega

/-- An index of the result by rows is in point `t`'s block iff each coordinate is in the block's range on its axis. -/
theorem mem_blk (t : Fin cfg0.N) (i : S16384x512x3.Idx) :
    i ∈ ((cfg0.win 2).blk t).view.set ↔ ∀ a : Fin 3, win0_2.index t a * S8x512x3.size a ≤ (i a).val
      ∧ (i a).val < win0_2.index t a * S8x512x3.size a + S8x512x3.size a := by
  show i ∈ ((View.whole main_v1).slice (win0_2.rect t)).set ↔ _
  rw [View.set_slice_whole, Rect.mem_set_unit]
  exact Iff.rfl

/-- The blocks tile the rows: row `r` lies in the block of point `r / 8`. -/
theorem cover (i : S16384x512x3.Idx) :
    ∃ t : Fin cfg0.N, (cfg0.win 2).flush t = true ∧ i ∈ ((cfg0.win 2).blk t).view.set := by
  have hi0 : (i 0).val < 16384 := (i 0).isLt
  have hi1 : (i 1).val < 512 := (i 1).isLt
  have hi2 : (i 2).val < 3 := (i 2).isLt
  obtain ⟨t, ht⟩ : ∃ t : Fin cfg0.N, t.val = (i 0).val / 8 :=
    ⟨⟨(i 0).val / 8, Nat.lt_of_lt_of_eq (by omega : (i 0).val / 8 < 2048) N_0.symm⟩, rfl⟩
  obtain ⟨-, -, -, -, -, e5, e6, e7⟩ := index_facts t
  refine ⟨t, flush0_2 t, ?_⟩
  rw [mem_blk]
  intro a
  match a with
  | ⟨0, _⟩ =>
    show win0_2.index t (0 : Fin 3) * 8 ≤ (i 0).val ∧ (i 0).val < win0_2.index t (0 : Fin 3) * 8 + 8
    rw [e5, ht]; omega
  | ⟨1, _⟩ =>
    show win0_2.index t (1 : Fin 3) * 512 ≤ (i 1).val ∧ (i 1).val < win0_2.index t (1 : Fin 3) * 512 + 512
    rw [e6]; omega
  | ⟨2, _⟩ =>
    show win0_2.index t (2 : Fin 3) * 3 ≤ (i 2).val ∧ (i 2).val < win0_2.index t (2 : Fin 3) * 3 + 3
    rw [e7]; omega

/-- THE ARRAY THE SWEEP LEAVES is the colour transform of the image by rows. -/
theorem swept (c : Dev nD) : (dats m 0 c).arrAt 2 cfg0.N = mix (V m c main_v0) (V m c main_arg1) :=
  (dats m 0 c).arrAt_eq_of_cover 2 (mix (V m c main_v0) (V m c main_arg1)) (fun t _ => flushed_eq m c t) cover

/-- The program's result is the array the sweep leaves, its leading axis split into the image's two. -/
theorem split_eq (c : Dev nD) :
    (Pipeline.afterTail₀ cfgs (dats m) 0 (V0 m) [hostOps1] c main_v2 : S32x512x512x3.Idx → EReal)
      = shapeCast S32x512x512x3 ((dats m 0 c).arrAt 2 cfg0.N) shapeCasts_S16384x512x3_S32x512x512x3 := by
  unfold Pipeline.afterTail₀
  show StableHlo.after hostOps1 _ (Proc.devRef .tc main_v2) = _
  after_results
  have e := Pipeline.withArrays_arr spec0 launch0.win.arr_inj c (V0 m c) (fun w => (dats m 0 c).arrAt w cfg0.N) 2
  funext i
  show shapeCast S32x512x512x3 (Pipeline.withArrays spec0 c (V0 m c) (fun w => (dats m 0 c).arrAt w cfg0.N)
    (Proc.devRef .tc main_v1)) shapeCasts_S16384x512x3_S32x512x512x3 i = _
  rw [e]

/-- THE RESULT: the program's result array is the colour transform of its arguments, the sum over the channels. -/
theorem result_eq (c : Dev nD) :
    (Pipeline.afterTail₀ cfgs (dats m) 0 (V0 m) [hostOps1] c main_v2 : S32x512x512x3.Idx → EReal)
      = mixImage (m ((c : Thread nD τ).loc main_arg0)) (m ((c : Thread nD τ).loc main_arg1)) := by
  rw [split_eq, swept, rows_eq, V_main_arg1]
  exact asImage_mix_byRows _ _ _ _

/-- The run, read: every weakly fair execution ends with the result array at the colour transform of the arguments and
    the arguments as they were. -/
theorem run : θ_run defs (onTc (τ := τ) (main (F := Ideal))) ⟨m, fun _ => 0, ρ⟩ fun r => ∀ c : Dev nD,
      r.2.mem ((c.tc : Thread nD τ).loc main_v2)
        = mixImage (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Image

end
-- ==== Proof.EinsumValue.lean ====
/-
  The reference's one operation, a contraction of the image's channel axis with the matrix's first axis, read
  at an index: entry (b, h, q, d) of the result is the sum over the channels c of x[b, h, q, c] · w[c, d] —
  the colour transform of the image as `Cert.PixelMix.mixImage` states it.
-/
import proofs.«119555_j55963423867505_2_alg».proof.Proof.Gen.ReferenceIdeal.Read
import proofs.«119555_j55963423867505_2_alg».proof.Proof.PixelMix

noncomputable section

open scoped BigOperators
open Idealize.ShloMosaic Idealize.ShloMosaic.ValueIdx

namespace Cert.ReferenceIdeal.Einsum

open Cert.ReferenceIdeal Cert.ReferenceIdeal.Read Cert.PixelMix

/-- The contraction's left operand is read at the result's pixel and the summed channel, -/
theorem lidx_eq (i : S32x512x512x3.Idx) (k : Fin 3) : lidx_main_v0 i k = ix4 (i 0) (i 1) (i 2) k :=
  funext fun a => Fin.ext (by match a with | ⟨0, _⟩ => rfl | ⟨1, _⟩ => rfl | ⟨2, _⟩ => rfl | ⟨3, _⟩ => rfl)

/-- and its right operand at the summed channel and the result's channel. -/
theorem ridx_eq (i : S32x512x512x3.Idx) (k : Fin 3) : ridx_main_v0 i k = ix2 k (i 3) :=
  funext fun a => Fin.ext (by match a with | ⟨0, _⟩ => rfl | ⟨1, _⟩ => rfl)

/-- The reference's result is the colour transform of its arguments. -/
theorem result_eq (x : (⟨S32x512x512x3, .f32⟩ : BufTy).Contents (Elt Ideal)) (w : (⟨S3x3, .f32⟩ : BufTy).Contents (Elt Ideal)) :
    val_main_v0 (F := Ideal) x w = mixImage x w := by
  funext i
  rw [val_main_v0_apply]
  simp only [lidx_eq, ridx_eq]
  rfl

end Cert.ReferenceIdeal.Einsum

end
-- ==== Proof.lean ====
/-
  A per-pixel colour transform: every pixel of an image x[b, h, q, c] (32 × 512 × 512 pixels, three channels c) has
  its channel vector multiplied by a 3×3 matrix w,  y[b, h, q, d] = Σ_c x[b, h, q, c] · w[c, d].

  The reference computes the sum over the channels as one contraction.  The kernel merges the image's two leading
  axes into 16384 rows, sweeps the rows in 2048 blocks of eight, forms on each block the three output channels as
  (x₀·w[0,d] + x₁·w[1,d]) + x₂·w[2,d]  from the block's three input channels and the nine matrix entries, writes
  the block back, and splits the leading axis again.  Over the extended reals the two agree entry by entry: the
  three products added from left to right ARE the sum over three channels, and merging and splitting the leading
  axes only renames the rows.  No distributivity or cancellation is used, so the inputs' finiteness is never opened.

  Proof/PixelMix.lean states the transform both ways and proves them equal; Proof/RowBlock.lean reads what the
  kernel's body leaves in a block; Proof/ImageValue.lean goes from the blocks to the whole result and reads the
  kernel's run; Proof/EinsumValue.lean reads the reference's contraction at an entry.  Here: the three frames
  (the two kernels' are the generated frame runs, the reference's is its run with the result dropped), the
  idealization's ledger (empty), and the equality of the two results.
-/
import proofs.«119555_j55963423867505_2_alg».proof.Defs
import proofs.«119555_j55963423867505_2_alg».proof.Proof.Gen.Kernel
import proofs.«119555_j55963423867505_2_alg».proof.Proof.Gen.Kernel.Skeleton
import proofs.«119555_j55963423867505_2_alg».proof.Proof.Gen.Kernel.Launch
import proofs.«119555_j55963423867505_2_alg».proof.Proof.Gen.Kernel.Points
import proofs.«119555_j55963423867505_2_alg».proof.Proof.Gen.Kernel.Frame
import proofs.«119555_j55963423867505_2_alg».proof.Proof.Gen.KernelIdeal
import proofs.«119555_j55963423867505_2_alg».proof.Proof.Gen.KernelIdeal.Skeleton
import proofs.«119555_j55963423867505_2_alg».proof.Proof.Gen.KernelIdeal.Launch
import proofs.«119555_j55963423867505_2_alg».proof.Proof.Gen.KernelIdeal.Points
import proofs.«119555_j55963423867505_2_alg».proof.Proof.Gen.KernelIdeal.Frame
import proofs.«119555_j55963423867505_2_alg».proof.Proof.Gen.ReferenceIdeal
import proofs.«119555_j55963423867505_2_alg».proof.Proof.Gen.ReferenceIdeal.Run
import proofs.«119555_j55963423867505_2_alg».proof.Proof.Gen.ReferenceIdeal.Read
import proofs.«119555_j55963423867505_2_alg».proof.Proof.Gen.Pre_finite_inputs
import proofs.«119555_j55963423867505_2_alg».proof.Proof.PixelMix
import proofs.«119555_j55963423867505_2_alg».proof.Proof.ImageValue
import proofs.«119555_j55963423867505_2_alg».proof.Proof.EinsumValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals the kernel's result array and the reference's both end at the colour transform of the
    (agreeing) arguments: the kernel's by its sweep read block by block, the reference's by its contraction read
    at an entry. -/
theorem algebraic : Cert.algebraic_KernelIdeal_ReferenceIdeal := by
  intro m ρ m' ρ' _ hagree
  refine ⟨fun c => Cert.PixelMix.mixImage
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Image.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v0_eq _ _).trans (Cert.ReferenceIdeal.Einsum.result_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
